-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x768 : Shape := ⟨3, ![16, 4096, 768]⟩
abbrev S8 : Shape := ⟨1, ![8]⟩
abbrev S_ : Shape := ⟨0, ![]⟩

class Facts : Prop where
  bcast_S_S16x4096x768 : S_.BroadcastsInDim S16x4096x768 (![] : Fin 0 → Fin S16x4096x768.rank)
  reducesTo_S16x4096x768_S_d0_1_2 : S16x4096x768.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S16x4096x768 .f32) (main_arg1 : FVec F S8 .f32) : IVec S_ 1 :=
  let main_v0 : FVec F S16x4096x768 .f32 := Host.absf main_arg0
  let main_cst : FVec F S_ .f32 := constant S_ .f32 0x7F800000#32
  let main_v1 : FVec F S16x4096x768 .f32 := broadcastInDim S16x4096x768 ![] bcast_S_S16x4096x768 main_cst
  let main_v2 : IVec S16x4096x768 1 := cmpf .olt main_v0 main_v1
  let main_c : IVec S_ 1 := constantI S_ 1 1#1
  let main_v3 : IVec S_ 1 := (fun x v => Host.reduce IntOp.andi x v reducesTo_S16x4096x768_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  main_v8
-- ==== Kernel.lean ====
abbrev S16x4096x768 : Shape := ⟨3, ![16, 4096, 768]⟩
abbrev S8 : Shape := ⟨1, ![8]⟩
abbrev S16x4096x8 : Shape := ⟨3, ![16, 4096, 8]⟩
abbrev S1x1024x128 : Shape := ⟨3, ![1, 1024, 128]⟩
abbrev S1x1024x8 : Shape := ⟨3, ![1, 1024, 8]⟩
abbrev S1x1x8 : Shape := ⟨3, ![1, 1, 8]⟩

abbrev nBuf : Space → Nat
  | .hbm => 3
  | .vmem => 5
  | .smem => 0
  | _ => 0

abbrev bufTy : (tb : Table) → Fin (tcTables nBuf tb) → BufTy
  | .hbm, ⟨0, _⟩ => ⟨S16x4096x768, .f32⟩
  | .hbm, ⟨1, _⟩ => ⟨S8, .f32⟩
  | .hbm, ⟨2, _⟩ => ⟨S16x4096x8, .f32⟩
  | .local _ .vmem, ⟨0, _⟩ => ⟨S1x1024x128, .f32⟩
  | .local _ .vmem, ⟨1, _⟩ => ⟨S1x1024x128, .f32⟩
  | .local _ .vmem, ⟨2, _⟩ => ⟨S8, .f32⟩
  | .local _ .vmem, ⟨3, _⟩ => ⟨S1x1024x8, .f32⟩
  | .local _ .vmem, ⟨4, _⟩ => ⟨S1x1024x8, .f32⟩
  | _, _ => ⟨S16x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x128_S1x1024x8_0_0_0 : ∀ a, (![0, 0, 0] : Fin 3 → Nat) a + S1x1024x8.size a ≤ S1x1024x128.size a
  h_S1x1024x8 : 0 < S1x1024x8.numel
  inb_S8_S8_0 : ∀ a, (![0] : Fin 1 → Nat) a + S8.size a ≤ S8.size a
  h_S8 : 0 < S8.numel
  shapeCasts_S8_S1x1x8 : S8.ShapeCasts S1x1x8
  broadcasts_S1x1x8_S1x1024x8 : S1x1x8.Broadcasts S1x1024x8
  inb_S1x1024x8_S1x1024x8_0_0_0 : ∀ a, (![0, 0, 0] : Fin 3 → Nat) a + S1x1024x8.size a ≤ S1x1024x8.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S16x4096x768.size a
  hwx0_0 : ∀ i : grid0.Coords, EltTy.bits .f32 = 32 ∨ (Rect.block (s := S16x4096x768) S1x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8.size a ≤ S8.size a
  hwx0_1 : ∀ i : grid0.Coords, EltTy.bits .f32 = 32 ∨ (Rect.block (s := S8) S8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x8.size a ≤ S16x4096x8.size a
  hwx0_2 : ∀ i : grid0.Coords, EltTy.bits .f32 = 32 ∨ (Rect.block (s := S16x4096x8) S1x1024x8.size (cc0_transform_2 i) (hinb0_2 i)).WholeWords (EltTy.packing .f32)

variable [Facts₀]

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x768 : Shape := ⟨3, ![16, 4096, 768]⟩
abbrev S8 : Shape := ⟨1, ![8]⟩
abbrev S16x4096x8 : Shape := ⟨3, ![16, 4096, 8]⟩
abbrev S1x1x8 : Shape := ⟨3, ![1, 1, 8]⟩

abbrev nBuf : Space → Nat
  | .hbm => 8
  | .vmem => 0
  | .smem => 0
  | _ => 0

abbrev bufTy : (tb : Table) → Fin (tcTables nBuf tb) → BufTy
  | .hbm, ⟨0, _⟩ => ⟨S16x4096x768, .f32⟩
  | .hbm, ⟨1, _⟩ => ⟨S8, .f32⟩
  | .hbm, ⟨2, _⟩ => ⟨S16x4096x8, .f32⟩
  | .hbm, ⟨3, _⟩ => ⟨S16x4096x8, .f32⟩
  | .hbm, ⟨4, _⟩ => ⟨S8, .f32⟩
  | .hbm, ⟨5, _⟩ => ⟨S1x1x8, .f32⟩
  | .hbm, ⟨6, _⟩ => ⟨S16x4096x8, .f32⟩
  | .hbm, ⟨7, _⟩ => ⟨S16x4096x8, .f32⟩
  | _, _ => ⟨S16x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  slices_S16x4096x768_S16x4096x8_0_0_0 : S16x4096x768.Slices ![0, 0, 0] S16x4096x8
  bcast_S8_S1x1x8_2 : S8.BroadcastsInDim S1x1x8 (![2] : Fin 1 → Fin S1x1x8.rank)
  bcast_S1x1x8_S16x4096x8_0_1_2 : S1x1x8.BroadcastsInDim S16x4096x8 (![0, 1, 2] : Fin 3 → Fin S16x4096x8.rank)

variable [Facts₀]

class Facts : Prop extends Facts₀ where

variable [Facts]
-- ==== Proof.CosProduct.lean ====
/-
  The function both programs compute. For an array x of shape [16, 4096, 768] and a vector θ of eight angles, the
  result has shape [16, 4096, 8] and its entry (b, s, j) is

      cos x[b, s, j] · cos θ[j]        (j < 8: only the first eight of the 768 channels are ever read),

  the product taken in the extended reals with the cosine extended to the two infinities by the ideal tier's
  convention. Nothing here depends on a program: the entry is spelt once, by coordinates, and the two sides are each
  compared with it.
-/
import Idealize.ShloMosaic.PureOps.Ideal

noncomputable section

namespace Cert.CosProduct

open Idealize.ShloMosaic

/-- The shape of x. -/
abbrev SX : Shape := ⟨3, ![16, 4096, 768]⟩
/-- The shape of θ. -/
abbrev SAngles : Shape := ⟨1, ![8]⟩
/-- The shape of the result. -/
abbrev SOut : Shape := ⟨3, ![16, 4096, 8]⟩

/-- The entry of x a result entry reads: the same three coordinates (the last one is below 8, so below 768). -/
abbrev source (i : SOut.Idx) : SX.Idx := fun a => match a with
  | ⟨0, _⟩ => ⟨(i 0).val, (i 0).isLt⟩
  | ⟨1, _⟩ => ⟨(i 1).val, (i 1).isLt⟩
  | ⟨2, _⟩ => ⟨(i 2).val, by have h : (i 2).val < 8 := (i 2).isLt; show (i 2).val < 768; omega⟩

/-- The angle a result entry reads: the one its last coordinate names. -/
abbrev angle (i : SOut.Idx) : SAngles.Idx := fun a => match a with
  | ⟨0, _⟩ => ⟨(i 2).val, (i 2).isLt⟩

/-- The result, entry by entry: cos x[b, s, j] · cos θ[j]. -/
def cosProduct (x : SX.Idx → Ideal .f32) (θ : SAngles.Idx → Ideal .f32) : SOut.Idx → Ideal .f32 :=
  fun i => Ideal.cos (x (source i)) * Ideal.cos (θ (angle i))

end Cert.CosProduct

end
-- ==== Proof.KernelBlocks.lean ====
/-
  The kernel, read entry by entry. The grid has 16 × 4 points; point (b, q) is handed the block of x with batch b,
  sequence rows 1024·q … 1024·q + 1023 and channels 0 … 127, and the whole of θ, and writes the block of the result
  with batch b, the same rows and all eight channels. Its body reads the first eight channels of its block of x,
  takes the cosine, multiplies by cos θ stretched along the rows, and stores the whole output block. So what a
  point writes back is its block of `cosProduct x θ`; the 64 blocks tile the result; hence the result array ends
  as `cosProduct x θ`.
-/
import proofs.«144213_j65481071402938_2_alg».proof.Proof.Gen.KernelIdeal.Value
import proofs.«144213_j65481071402938_2_alg».proof.Proof.CosProduct

noncomputable section

namespace Cert.KernelIdeal.CosProduct

open Cert.KernelIdeal Cert.KernelIdeal.Gen Idealize.ShloMosaic Idealize.ShloMosaic.TcCoe Idealize.SL.Sem Cert.CosProduct
open Idealize.ShloMosaic.Pipeline (Dat)

variable (m : (ℓ : Loc nD τ sig) → Buf (Elt Ideal) ℓ) (ρ : Dev nD → PrngReg)

/-- The three index maps at a grid point: the block of x and the block of the result have the same batch and row-block
    numbers, both sit at channel block 0, and θ's one block is block 0. Decided over the 64 points. -/
theorem block_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_2.index t (2 : Fin 3) = 0
    ∧ win0_1.index t (0 : Fin 1) = 0 :=
  (by decide +kernel : ∀ t : Fin grid0.N, _)

/-- Every (batch, row-block) pair is some grid point's output block. -/
theorem every_block : ∀ (b : Fin 16) (q : Fin 4), ∃ t : Fin cfg0.N, win0_2.index t = ![b.val, q.val, 0] :=
  (by decide +kernel : ∀ (b : Fin 16) (q : Fin 4), ∃ t : Fin grid0.N, win0_2.index t = ![b.val, q.val, 0])

/-- What grid point t writes back is its block of `cosProduct` of the two argument arrays: entry (0, r, j) of the
    output block is cos of entry (0, r, j) of the block of x times cos θ[j], and entry (0, r, j) of either block lies
    at (b, 1024·q + r, j) in its array. -/
theorem flushed_eq (c : Dev nD) (t : Fin cfg0.N) :
    (dats m 0 c).flushed 2 t
      = ((cfg0.win 2).blk t).view.read (Elt Ideal) (cosProduct (V m c main_arg0) (V m c main_arg1)) := by
  rw [Value.flushed2]
  unfold out0_2
  obtain ⟨e0, e1, e2, e3, e4⟩ := block_indices t
  funext j
  have hj0 : (j 0).val < 1 := (j 0).isLt
  have hj1 : (j 1).val < 1024 := (j 1).isLt
  have hj2 : (j 2).val < 8 := (j 2).isLt
  show View.canon (Val := Elt Ideal)
      [(⟨r0_2, k0_pay1 (View.ld (iblk m c 0 t) r0_0) (View.ld (iblk m c 1 t) r0_1)⟩ : View.Piece (Elt Ideal) S1x1024x8 .f32)] j
    = cosProduct (V m c main_arg0) (V m c main_arg1) (((cfg0.win 2).blk t).view.emb j)
  rw [Value.canon2_eq]
  show Ideal.cos (V m c main_arg0 (((cfg0.win 0).blk t).view.emb (r0_0.emb (Value.ix2_0 j))))
      * Ideal.cos (V m c main_arg1 (((cfg0.win 1).blk t).view.emb (r0_1.emb (Value.ix2_1 j))))
    = Ideal.cos (V m c main_arg0 (source (((cfg0.win 2).blk t).view.emb j)))
      * Ideal.cos (V m c main_arg1 (angle (((cfg0.win 2).blk t).view.emb j)))
  have hx : ((cfg0.win 0).blk t).view.emb (r0_0.emb (Value.ix2_0 j)) = source (((cfg0.win 2).blk t).view.emb j) := by
    funext a; apply Fin.ext
    match a with
    | ⟨0, _⟩ => show win0_0.index t (0 : Fin 3) * 1 + 1 * (0 + 1 * 0) = win0_2.index t (0 : Fin 3) * 1 + 1 * (j 0).val; omega
    | ⟨1, _⟩ => show win0_0.index t (1 : Fin 3) * 1024 + 1 * (0 + 1 * (j 1).val) = win0_2.index t (1 : Fin 3) * 1024 + 1 * (j 1).val; omega
    | ⟨2, _⟩ => show win0_0.index t (2 : Fin 3) * 128 + 1 * (0 + 1 * (j 2).val) = win0_2.index t (2 : Fin 3) * 8 + 1 * (j 2).val; omega
  have hθ : ((cfg0.win 1).blk t).view.emb (r0_1.emb (Value.ix2_1 j)) = angle (((cfg0.win 2).blk t).view.emb j) := by
    funext a; apply Fin.ext
    match a with
    | ⟨0, _⟩ => show win0_1.index t (0 : Fin 1) * 8 + 1 * (0 + 1 * (j 2).val) = win0_2.index t (2 : Fin 3) * 8 + 1 * (j 2).val; omega
  rw [hx, hθ]

/-- An entry of the result lies in point t's block iff each coordinate lies in the block's range on its axis. -/
theorem mem_block (t : Fin cfg0.N) (i : S16x4096x8.Idx) :
    i ∈ ((cfg0.win 2).blk t).view.set ↔ ∀ a : Fin 3, win0_2.index t a * S1x1024x8.size a ≤ (i a).val
      ∧ (i a).val < win0_2.index t a * S1x1024x8.size a + S1x1024x8.size a := by
  show i ∈ ((View.whole main_v0).slice (win0_2.rect t)).set ↔ _
  rw [View.set_slice_whole, Rect.mem_set_unit]
  exact Iff.rfl

/-- The output blocks tile the result: entry (b, s, j) lies in the block of the point with batch b and row-block
    s / 1024. -/
theorem covered (i : S16x4096x8.Idx) :
    ∃ t : Fin cfg0.N, (cfg0.win 2).flush t = true ∧ i ∈ ((cfg0.win 2).blk t).view.set := by
  have hi0 : (i 0).val < 16 := (i 0).isLt
  have hi1 : (i 1).val < 4096 := (i 1).isLt
  have hi2 : (i 2).val < 8 := (i 2).isLt
  obtain ⟨t, ht⟩ := every_block ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 8 ≤ (i 2).val ∧ (i 2).val < win0_2.index t (2 : Fin 3) * 8 + 8; omega

/-- The result array after the run is `cosProduct` of the two arguments as launched. -/
theorem final (c : Dev nD) :
    (dats m 0 c).arrAt 2 cfg0.N
      = cosProduct (m ((c : Thread nD τ).loc main_arg0)) (m ((c : Thread nD τ).loc main_arg1)) :=
  (dats m 0 c).arrAt_eq_of_cover 2 _ (fun t _ => flushed_eq m c t) covered

/-- Every weakly fair execution of the kernel's program terminates, without a fault, with the result array at
    `cosProduct` of the arguments and the arguments unchanged. -/
theorem run : θ_run defs (onTc (τ := τ) (main (F := Ideal))) ⟨m, fun _ => 0, ρ⟩ fun r => ∀ c : Dev nD,
      r.2.mem ((c : Thread nD τ).loc main_v0)
        = cosProduct (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.CosProduct

end
-- ==== Proof.ReferenceCosProduct.lean ====
/-
  The reference, read entry by entry. It slices the first eight channels out of x, takes the cosine of the slice and
  of θ, stretches cos θ along the batch and sequence axes (in two steps: [8] to [1, 1, 8], then to [16, 4096, 8]) and
  multiplies. A slice and a broadcast only choose which entry is read, so entry (b, s, j) of the product is
  cos x[b, s, j] · cos θ[j]: the function `cosProduct`.
-/
import proofs.«144213_j65481071402938_2_alg».proof.Proof.Gen.ReferenceIdeal.Read
import proofs.«144213_j65481071402938_2_alg».proof.Proof.CosProduct

noncomputable section

namespace Cert.ReferenceIdeal.CosProduct

open Cert.ReferenceIdeal Cert.ReferenceIdeal.Read Idealize.ShloMosaic Cert.CosProduct

/-- Reading through the two broadcasts, result entry i takes the angle its last coordinate names. -/
theorem angle_through_broadcasts (i : S16x4096x8.Idx) : idx_main_v3 (idx_main_v4 i) = angle i :=
  funext fun a => Fin.ext (by match a with | ⟨0, _⟩ => rfl)

/-- The reference's last stage is `cosProduct` of the two arguments. -/
theorem reference_eq (x : (⟨S16x4096x768, .f32⟩ : BufTy).Contents (Elt Ideal)) (θ : (⟨S8, .f32⟩ : BufTy).Contents (Elt Ideal)) :
    val_main_v5 (F := Ideal) x θ = cosProduct x θ := by
  funext i
  rw [val_main_v5_apply, val_main_v1_apply, val_main_v0_apply, val_main_v4_apply, val_main_v3_apply, val_main_v2_apply,
    angle_through_broadcasts]
  simp only [Ideal.hostUnary_cos_def, Ideal.mulf_def]
  rfl

end Cert.ReferenceIdeal.CosProduct

end
-- ==== Proof.lean ====
/-
  Both programs compute, for x of shape [16, 4096, 768] and eight angles θ, the array of shape [16, 4096, 8] whose
  entry (b, s, j) is cos x[b, s, j] · cos θ[j] (Proof/CosProduct.lean).

  The kernel walks a 16 × 4 grid; each point reads a [1, 1024, 128] block of x (of which it uses the first eight
  channels) and all of θ, and writes the [1, 1024, 8] block of the result under it; the blocks tile the result
  (Proof/KernelBlocks.lean). The reference slices x, takes cosines, broadcasts cos θ and multiplies
  (Proof/ReferenceCosProduct.lean). On the extended reals the vector unit's cosine and the host's are one function,
  a slice and a broadcast only choose which entry is read, and a change of tiling changes nothing; so the two results
  agree entry by entry, for every input — the finiteness of the inputs is never used.

  The idealization rewrote no operation, so there is nothing to preserve; the three frames are the kernel programs'
  runs with the result forgotten.
-/
import proofs.«144213_j65481071402938_2_alg».proof.Defs
import proofs.«144213_j65481071402938_2_alg».proof.Proof.Gen.Kernel
import proofs.«144213_j65481071402938_2_alg».proof.Proof.Gen.Kernel.Frame
import proofs.«144213_j65481071402938_2_alg».proof.Proof.Gen.KernelIdeal
import proofs.«144213_j65481071402938_2_alg».proof.Proof.Gen.KernelIdeal.Frame
import proofs.«144213_j65481071402938_2_alg».proof.Proof.Gen.ReferenceIdeal
import proofs.«144213_j65481071402938_2_alg».proof.Proof.Gen.Pre_finite_inputs
import proofs.«144213_j65481071402938_2_alg».proof.Proof.Gen.ReferenceIdeal.Run
import proofs.«144213_j65481071402938_2_alg».proof.Proof.KernelBlocks
import proofs.«144213_j65481071402938_2_alg».proof.Proof.ReferenceCosProduct
import Idealize.ShloMosaic.Adequacy
import Idealize.ShloMosaic.Init

noncomputable section

namespace Cert.Proof

open Idealize.ShloMosaic Idealize.SL.Sem

/-- The kernel as printed runs to the end and leaves its arguments as they were. -/
theorem frame_kernel [Cert.Kernel.Facts] [Cert.Pre_finite_inputs.Facts] : Cert.frame_Kernel :=
  fun m ρ _ => Cert.Kernel.Gen.frame m ρ

/-- So does the kernel read over the extended reals. -/
theorem frame_kernel_ideal [Cert.KernelIdeal.Facts] [Cert.Pre_finite_inputs.Facts] : Cert.frame_KernelIdeal :=
  fun m ρ _ => Cert.KernelIdeal.Gen.frame m ρ

/-- And the reference: its run, with what it says about the result dropped. -/
theorem frame_reference_ideal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on x and θ, both programs end with the result at `cosProduct x θ`. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.CosProduct.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.CosProduct.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
